-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64x128 .f32) (main_arg10 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S64x128 .f32) (main_arg9 : FVec F S64x128 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 102
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S_, .f32⟩
  | .hbm, ⟨87, _⟩ => ⟨S1600000, .f32⟩
  | .hbm, ⟨88, _⟩ => ⟨S_, .f32⟩
  | .hbm, ⟨89, _⟩ => ⟨S100000, .f32⟩
  | .hbm, ⟨90, _⟩ => ⟨S1600000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S128x64, .f32⟩
  | .hbm, ⟨99, _⟩ => ⟨S128x64, .f32⟩
  | .hbm, ⟨100, _⟩ => ⟨S1x64, .f32⟩
  | .hbm, ⟨101, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S128x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result NAMED.

  The program is three pallas regions among stretches of host operations. Its run is a chain of six segments; after the
  last one every unscoped buffer of the TensorCore holds the last boundary's contents (the fold `Gen.W6` of the launch
  memory through the stretches and the regions' write-backs). Reading the final state against those contents gives, beside
  the eleven argument arrays as launched, the result buffer at `Gen.W6 … main_v72` — which the other modules then open.
-/
import proofs.«175238_j19155554140465_1_alg».proof.Proof.Gen.KernelIdeal.Frame

set_option maxRecDepth 16384

noncomputable section

namespace Cert.KernelIdeal.SageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched: the segments' chain, its last thread state read against
    the final state, the result by its own name and each argument walked back through the fold. -/
theorem run : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.SageRun

end
-- ==== Proof.Layer.lean ====
/-
  One SAGE layer as a function of whole arrays, index by index, over the extended reals.

  For a node `r` and an output channel `j` the layer's value is
      (Σₖ mean[r,k] · wl[k,j]  +  Σₖ x[r,k] · wr[k,j])  +  b[0,j],
  the sum of the neighbourhood mean times the (already transposed) left weight, the node's own features times the
  (already transposed) right weight, and the bias row — associated exactly so: no distributivity, no cancelling,
  hence nothing about finiteness is needed to compare two programs that both compute it in this order.
  The two hidden layers clamp the result below at zero.
-/
import Idealize.ShloMosaic.PureOps.Ideal
import Idealize.ShloMosaic.Lib.ValueIdx

noncomputable section

namespace Cert.Sage

open Idealize.ShloMosaic Idealize.ShloMosaic.ValueIdx

/-- The layer's value at node `r`, channel `j`: the two contractions over the 128 input channels, then the bias. -/
def combineAt (C : Nat) (mean x : (⟨2, ![100000, 128]⟩ : Shape).Idx → EReal) (wl wr : (⟨2, ![128, C]⟩ : Shape).Idx → EReal)
    (b : (⟨2, ![1, C]⟩ : Shape).Idx → EReal) (r : Fin 100000) (j : Fin C) : EReal :=
  ((∑ k : Fin 128, mean (ix2 r k) * wl (ix2 k j)) + (∑ k : Fin 128, x (ix2 r k) * wr (ix2 k j))) + b (ix2 (0 : Fin 1) j)

/-- The layer as a whole array of `100000 × C` values. -/
def combine (C : Nat) (mean x : (⟨2, ![100000, 128]⟩ : Shape).Idx → EReal) (wl wr : (⟨2, ![128, C]⟩ : Shape).Idx → EReal)
    (b : (⟨2, ![1, C]⟩ : Shape).Idx → EReal) : (⟨2, ![100000, C]⟩ : Shape).Idx → EReal :=
  fun i => combineAt C mean x wl wr b (i 0) (i 1)

theorem combine_ix2 (C : Nat) (mean x : (⟨2, ![100000, 128]⟩ : Shape).Idx → EReal) (wl wr : (⟨2, ![128, C]⟩ : Shape).Idx → EReal)
    (b : (⟨2, ![1, C]⟩ : Shape).Idx → EReal) (r : Fin 100000) (j : Fin C) :
    combine C mean x wl wr b (ix2 r j) = combineAt C mean x wl wr b r j := rfl

/-- The clamp below at zero (the float word of `+0.0` read as an extended real), element by element. -/
def relu (C : Nat) (h : (⟨2, ![100000, C]⟩ : Shape).Idx → EReal) : (⟨2, ![100000, C]⟩ : Shape).Idx → EReal :=
  fun i => max (h i) (Ideal.ofBits .f32 0x00000000#32)

theorem relu_apply (C : Nat) (h : (⟨2, ![100000, C]⟩ : Shape).Idx → EReal) (i : (⟨2, ![100000, C]⟩ : Shape).Idx) :
    relu C h i = max (h i) (Ideal.ofBits .f32 0x00000000#32) := rfl

end Cert.Sage

end
-- ==== Proof.HostDefs.lean ====
/-
  The network as one function of its eleven argument arrays.

  Each of the three layers first takes, for every node, the MEAN of its in-neighbours' feature rows — rows gathered at the
  edges' source nodes, summed into the destination nodes, divided by the in-degree clamped below at one — and then
  combines that mean with the node's own row through two weight matrices and a bias (`Cert.Sage.combine`); the two hidden
  layers clamp below at zero. The mean is the same chain of host operations in the kernel's program and in the
  reference, so it is carried as ONE function (`aggregate`) and never opened: only the values going into it are compared.
-/
import proofs.«175238_j19155554140465_1_alg».proof.Proof.Layer
import proofs.«175238_j19155554140465_1_alg».proof.Proof.Gen.KernelIdeal

set_option maxRecDepth 16384

noncomputable section

namespace Cert.KernelIdeal.SageHost

open Idealize.ShloMosaic Idealize.ShloMosaic.TcCoe Idealize.SL.Sem Idealize.ShloMosaic.StableHlo
open Cert.KernelIdeal Cert.KernelIdeal.Gen

section
variable {F : FTy → Type} [FloatOps F]

/-- Row 0 of the edge list as a vector: the source node of each edge. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list as a vector: the destination node of each edge. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean of the source rows of `h` over each node's incoming edges (source nodes `s`, destination nodes `d`): rows
    gathered at the sources (a negative source wrapped by the node count), summed into their destinations, and divided
    by the in-degree clamped below at one. The SAME host operations in both programs, carried as one function. -/
def aggregate (h : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

end

/-- A hidden layer: the neighbourhood mean of `h` and `h` itself through the transposed weights, the bias as a row, then
    the clamp below at zero. -/
def hidden (h : (⟨S100000x128, .f32⟩ : BufTy).Contents (Elt Ideal)) (e : (⟨S2x1600000, .i32⟩ : BufTy).Contents (Elt Ideal))
    (wl wr : (⟨S128x128, .f32⟩ : BufTy).Contents (Elt Ideal)) (b : (⟨S128, .f32⟩ : BufTy).Contents (Elt Ideal)) :
    (⟨S100000x128, .f32⟩ : BufTy).Contents (Elt Ideal) :=
  Cert.Sage.relu 128 (Cert.Sage.combine 128 (aggregate (F := Ideal) h (srcRow e) (dstRow e)) h
    (transpose S128x128 [1, 0] wl transposes_S128x128_S128x128_1_0) (transpose S128x128 [1, 0] wr transposes_S128x128_S128x128_1_0)
    (shapeCast S1x128 b shapeCasts_S128_S1x128))

/-- The output layer: the same combination into 64 channels, with no clamp. -/
def output (h : (⟨S100000x128, .f32⟩ : BufTy).Contents (Elt Ideal)) (e : (⟨S2x1600000, .i32⟩ : BufTy).Contents (Elt Ideal))
    (wl wr : (⟨S64x128, .f32⟩ : BufTy).Contents (Elt Ideal)) (b : (⟨S64, .f32⟩ : BufTy).Contents (Elt Ideal)) :
    (⟨S100000x64, .f32⟩ : BufTy).Contents (Elt Ideal) :=
  Cert.Sage.combine 64 (aggregate (F := Ideal) h (srcRow e) (dstRow e)) h
    (transpose S128x64 [1, 0] wl transposes_S64x128_S128x64_1_0) (transpose S128x64 [1, 0] wr transposes_S64x128_S128x64_1_0)
    (shapeCast S1x64 b shapeCasts_S64_S1x64)

/-- The three layers in a row. -/
def network (x : (⟨S100000x128, .f32⟩ : BufTy).Contents (Elt Ideal)) (e : (⟨S2x1600000, .i32⟩ : BufTy).Contents (Elt Ideal))
    (w1l w1r : (⟨S128x128, .f32⟩ : BufTy).Contents (Elt Ideal)) (b1 : (⟨S128, .f32⟩ : BufTy).Contents (Elt Ideal))
    (w2l w2r : (⟨S128x128, .f32⟩ : BufTy).Contents (Elt Ideal)) (b2 : (⟨S128, .f32⟩ : BufTy).Contents (Elt Ideal))
    (w3l w3r : (⟨S64x128, .f32⟩ : BufTy).Contents (Elt Ideal)) (b3 : (⟨S64, .f32⟩ : BufTy).Contents (Elt Ideal)) :
    (⟨S100000x64, .f32⟩ : BufTy).Contents (Elt Ideal) :=
  output (hidden (hidden x e w1l w1r b1) e w2l w2r b2) e w3l w3r b3

end Cert.KernelIdeal.SageHost

end
-- ==== Proof.Stretch0.lean ====
/-
  The first stretch of host operations, read one result at a time.

  From ANY contents `W` of the TensorCore's buffers, the operations before the first region leave: the neighbourhood mean
  of the node features (argument 0 over the edge list, argument 1), the two weight matrices transposed, the bias as a
  row, and the edge list's two rows as vectors (later stretches read them again); the arguments they do not write stay.
-/
import proofs.«175238_j19155554140465_1_alg».proof.Proof.HostDefs
import proofs.«175238_j19155554140465_1_alg».proof.Proof.Gen.KernelIdeal.Launch
import Idealize.ShloMosaic.Lib.StableHlo.Run

set_option maxRecDepth 16384

noncomputable section

namespace Cert.KernelIdeal.SageHost

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
theorem s0_v22 (W : Valuation τ sig (Elt F)) :
    StableHlo.after hostOps0 W (Proc.devRef .tc main_v22)
      = aggregate (W (Proc.devRef .tc main_arg0)) (srcRow (W (Proc.devRef .tc main_arg1))) (dstRow (W (Proc.devRef .tc main_arg1))) := by
  after_results
  rfl

theorem s0_v23 (W : Valuation τ sig (Elt F)) :
    StableHlo.after hostOps0 W (Proc.devRef .tc main_v23)
      = transpose S128x128 [1, 0] (W (Proc.devRef .tc main_arg2)) transposes_S128x128_S128x128_1_0 := by
  after_results

theorem s0_v24 (W : Valuation τ sig (Elt F)) :
    StableHlo.after hostOps0 W (Proc.devRef .tc main_v24)
      = transpose S128x128 [1, 0] (W (Proc.devRef .tc main_arg3)) transposes_S128x128_S128x128_1_0 := by
  after_results

theorem s0_v25 (W : Valuation τ sig (Elt F)) :
    StableHlo.after hostOps0 W (Proc.devRef .tc main_v25)
      = shapeCast S1x128 (W (Proc.devRef .tc main_arg4)) shapeCasts_S128_S1x128 := by
  after_results
  rfl

theorem s0_v1 (W : Valuation τ sig (Elt F)) :
    StableHlo.after hostOps0 W (Proc.devRef .tc main_v1) = srcRow (W (Proc.devRef .tc main_arg1)) := by
  after_results
  rfl

theorem s0_v3 (W : Valuation τ sig (Elt F)) :
    StableHlo.after hostOps0 W (Proc.devRef .tc main_v3) = dstRow (W (Proc.devRef .tc main_arg1)) := by
  after_results
  rfl

theorem s0_arg0 (W : Valuation τ sig (Elt F)) :
    StableHlo.after hostOps0 W (Proc.devRef .tc main_arg0) = W (Proc.devRef .tc main_arg0) := by
  after_results

theorem s0_arg1 (W : Valuation τ sig (Elt F)) :
    StableHlo.after hostOps0 W (Proc.devRef .tc main_arg1) = W (Proc.devRef .tc main_arg1) := by
  after_results

theorem s0_arg5 (W : Valuation τ sig (Elt F)) :
    StableHlo.after hostOps0 W (Proc.devRef .tc main_arg5) = W (Proc.devRef .tc main_arg5) := by
  after_results

theorem s0_arg6 (W : Valuation τ sig (Elt F)) :
    StableHlo.after hostOps0 W (Proc.devRef .tc main_arg6) = W (Proc.devRef .tc main_arg6) := by
  after_results

theorem s0_arg7 (W : Valuation τ sig (Elt F)) :
    StableHlo.after hostOps0 W (Proc.devRef .tc main_arg7) = W (Proc.devRef .tc main_arg7) := by
  after_results

theorem s0_arg8 (W : Valuation τ sig (Elt F)) :
    StableHlo.after hostOps0 W (Proc.devRef .tc main_arg8) = W (Proc.devRef .tc main_arg8) := by
  after_results

theorem s0_arg9 (W : Valuation τ sig (Elt F)) :
    StableHlo.after hostOps0 W (Proc.devRef .tc main_arg9) = W (Proc.devRef .tc main_arg9) := by
  after_results

theorem s0_arg10 (W : Valuation τ sig (Elt F)) :
    StableHlo.after hostOps0 W (Proc.devRef .tc main_arg10) = W (Proc.devRef .tc main_arg10) := by
  after_results

end Cert.KernelIdeal.SageHost

end
-- ==== Proof.Stretch1.lean ====
/-
  The second stretch of host operations, read one result at a time.

  From ANY contents `W`, the operations between the first and the second region leave: the neighbourhood mean of the
  first region's output (over the edge rows the first stretch wrote), the second layer's weights transposed and its bias
  as a row; the first region's output itself, the edge rows and the third layer's arguments stay.
-/
import proofs.«175238_j19155554140465_1_alg».proof.Proof.HostDefs
import proofs.«175238_j19155554140465_1_alg».proof.Proof.Gen.KernelIdeal.Launch
import Idealize.ShloMosaic.Lib.StableHlo.Run

set_option maxRecDepth 16384

noncomputable section

namespace Cert.KernelIdeal.SageHost

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
theorem s1_v45 (W : Valuation τ sig (Elt F)) :
    StableHlo.after hostOps1 W (Proc.devRef .tc main_v45)
      = aggregate (W (Proc.devRef .tc main_v26)) (W (Proc.devRef .tc main_v1)) (W (Proc.devRef .tc main_v3)) := by
  after_results
  rfl

theorem s1_v46 (W : Valuation τ sig (Elt F)) :
    StableHlo.after hostOps1 W (Proc.devRef .tc main_v46)
      = transpose S128x128 [1, 0] (W (Proc.devRef .tc main_arg5)) transposes_S128x128_S128x128_1_0 := by
  after_results

theorem s1_v47 (W : Valuation τ sig (Elt F)) :
    StableHlo.after hostOps1 W (Proc.devRef .tc main_v47)
      = transpose S128x128 [1, 0] (W (Proc.devRef .tc main_arg6)) transposes_S128x128_S128x128_1_0 := by
  after_results

theorem s1_v48 (W : Valuation τ sig (Elt F)) :
    StableHlo.after hostOps1 W (Proc.devRef .tc main_v48)
      = shapeCast S1x128 (W (Proc.devRef .tc main_arg7)) shapeCasts_S128_S1x128 := by
  after_results
  rfl

theorem s1_v26 (W : Valuation τ sig (Elt F)) :
    StableHlo.after hostOps1 W (Proc.devRef .tc main_v26) = W (Proc.devRef .tc main_v26) := by
  after_results

theorem s1_v1 (W : Valuation τ sig (Elt F)) :
    StableHlo.after hostOps1 W (Proc.devRef .tc main_v1) = W (Proc.devRef .tc main_v1) := by
  after_results

theorem s1_v3 (W : Valuation τ sig (Elt F)) :
    StableHlo.after hostOps1 W (Proc.devRef .tc main_v3) = W (Proc.devRef .tc main_v3) := by
  after_results

theorem s1_arg1 (W : Valuation τ sig (Elt F)) :
    StableHlo.after hostOps1 W (Proc.devRef .tc main_arg1) = W (Proc.devRef .tc main_arg1) := by
  after_results

theorem s1_arg8 (W : Valuation τ sig (Elt F)) :
    StableHlo.after hostOps1 W (Proc.devRef .tc main_arg8) = W (Proc.devRef .tc main_arg8) := by
  after_results

theorem s1_arg9 (W : Valuation τ sig (Elt F)) :
    StableHlo.after hostOps1 W (Proc.devRef .tc main_arg9) = W (Proc.devRef .tc main_arg9) := by
  after_results

theorem s1_arg10 (W : Valuation τ sig (Elt F)) :
    StableHlo.after hostOps1 W (Proc.devRef .tc main_arg10) = W (Proc.devRef .tc main_arg10) := by
  after_results

end Cert.KernelIdeal.SageHost

end
-- ==== Proof.Stretch2.lean ====
/-
  The third stretch of host operations, read one result at a time.

  From ANY contents `W`, the operations between the second and the third region leave: the neighbourhood mean of the
  second region's output, the output layer's weights transposed and its bias as a row; the second region's output stays.
-/
import proofs.«175238_j19155554140465_1_alg».proof.Proof.HostDefs
import proofs.«175238_j19155554140465_1_alg».proof.Proof.Gen.KernelIdeal.Launch
import Idealize.ShloMosaic.Lib.StableHlo.Run

set_option maxRecDepth 16384

noncomputable section

namespace Cert.KernelIdeal.SageHost

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
theorem s2_v68 (W : Valuation τ sig (Elt F)) :
    StableHlo.after hostOps2 W (Proc.devRef .tc main_v68)
      = aggregate (W (Proc.devRef .tc main_v49)) (W (Proc.devRef .tc main_v1)) (W (Proc.devRef .tc main_v3)) := by
  after_results
  rfl

theorem s2_v69 (W : Valuation τ sig (Elt F)) :
    StableHlo.after hostOps2 W (Proc.devRef .tc main_v69)
      = transpose S128x64 [1, 0] (W (Proc.devRef .tc main_arg8)) transposes_S64x128_S128x64_1_0 := by
  after_results

theorem s2_v70 (W : Valuation τ sig (Elt F)) :
    StableHlo.after hostOps2 W (Proc.devRef .tc main_v70)
      = transpose S128x64 [1, 0] (W (Proc.devRef .tc main_arg9)) transposes_S64x128_S128x64_1_0 := by
  after_results

theorem s2_v71 (W : Valuation τ sig (Elt F)) :
    StableHlo.after hostOps2 W (Proc.devRef .tc main_v71)
      = shapeCast S1x64 (W (Proc.devRef .tc main_arg10)) shapeCasts_S64_S1x64 := by
  after_results
  rfl

theorem s2_v49 (W : Valuation τ sig (Elt F)) :
    StableHlo.after hostOps2 W (Proc.devRef .tc main_v49) = W (Proc.devRef .tc main_v49) := by
  after_results

end Cert.KernelIdeal.SageHost

end
-- ==== Proof.Region0.lean ====
/-
  The first hidden SAGE layer as the kernel computes it, one block of rows at a time, read back as one whole array.

  The grid has 20 points. Point `t` takes rows `5000·t … 5000·t + 4999` of the neighbourhood-mean array and of the
  nodes' own features, the two whole 128 × 128 weights and the bias row, and writes the same rows of the output:
      out[r, j] = max((Σₖ mean[r,k] · wl[k,j]  +  Σₖ x[r,k] · wr[k,j])  +  b[0,j],  +0.0).
  Over the extended reals a change of float format is the identity and a matrix product into a zero accumulator is the
  plain sum over the contracted channel, so every entry of a block is the layer's formula at its own row of the whole
  arrays, with the sums associated exactly as the layer's definition associates them. The 20 blocks together cover the
  100000 rows (row `r` lies in block `r / 5000`), hence the output array ends as the layer's whole-array value.
-/
import proofs.«175238_j19155554140465_1_alg».proof.Proof.Layer
import proofs.«175238_j19155554140465_1_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem

namespace Cert.KernelIdeal.SageRegion0

open Cert.KernelIdeal Cert.KernelIdeal.Gen Idealize.ShloMosaic.ValueIdx

/-! ## A [5000,128] × [128,128] product at an entry -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted channel; -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted channel … -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 weight, accumulated from zero: entry `(p, j)` is `Σₖ l[p,k] · r[k,j]`. -/
theorem matmul_at (l : FVec Ideal S5000x128 .bf16) (r : FVec Ideal S128x128 .bf16) (p : Fin 5000) (j : Fin 128) :
    matmul (F := Ideal) dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-! ## The body's arithmetic at an entry of a block -/

/-- Entry `(p, j)` of what the body stores, from the five blocks it loads: the two products, the bias row's entry `j`
    added to their sum, and the clamp below at zero. -/
theorem payload_at (x0 x1 : Vec Ideal S5000x128 .f32) (x2 x3 : Vec Ideal S128x128 .f32) (x4 : Vec Ideal S1x128 .f32) (p : Fin 5000) (j : Fin 128) :
    k0_pay1 (F := Ideal) x0 x1 x2 x3 x4 (ix2 p j)
      = max (((∑ k : Fin 128, x0 (ix2 p k) * x2 (ix2 k j)) + ∑ k : Fin 128, x1 (ix2 p k) * x3 (ix2 k j)) + x4 (ix2 (0 : Fin 1) j)) (Ideal.ofBits .f32 0x00000000#32) := by
  unfold k0_pay1
  simp only [shapeCast_self]
  rw [maximumf_apply, addf_apply, addf_apply, matmul_at, matmul_at, broadcastTo_1b_ab_apply, broadcast_apply]
  rfl

/-! ## The blocks, point by point -/

theorem hz : (![0, 0] : Fin 2 → Nat) = fun _ => 0 := funext fun a => by fin_cases a <;> rfl

/-- The index maps over the 20 grid points: the two feature inputs move with the output, one block of 5000 rows per
    point; the two weights and the bias row stay at their one block; the output's row-block number is below 20. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) < 20 ∧ win0_5.index t (1 : Fin 2) = 0 :=
  (by decide +kernel : ∀ t : Fin grid0.N, _)

/-- Every one of the 20 row blocks of the output is some grid point's. -/
theorem idx_onto : ∀ q : Fin 20, ∃ t : Fin cfg0.N, win0_5.index t (0 : Fin 2) = q.val :=
  (by decide +kernel : ∀ q : Fin 20, ∃ t : Fin grid0.N, win0_5.index t (0 : Fin 2) = q.val)

variable (V : (c : Dev nD) → (b : Ref sig .tc) → Buf (Elt Ideal) ((c : Thread nD τ).loc b))

/-- Row `p` of the neighbourhood-mean block at point `t` is row `5000·(block number) + p` of the whole array. -/
theorem mean_block_at (c : Dev nD) (t : Fin cfg0.N) (p : Fin 5000) (k : Fin 128) (r : Fin 100000)
    (hr : r.val = win0_5.index t (0 : Fin 2) * 5000 + p.val) :
    (iblk0 V c 0 t : Vec Ideal S5000x128 .f32) (ix2 p k) = (V c main_v22 : S100000x128.Idx → EReal) (ix2 r k) := by
  obtain ⟨e0, e1, -⟩ := idx_facts t
  unfold iblk0
  rw [View.read_apply]
  show V c main_v22 _ = V c main_v22 _
  refine congrArg _ ?_
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The same for the block of the nodes' own features. -/
theorem self_block_at (c : Dev nD) (t : Fin cfg0.N) (p : Fin 5000) (k : Fin 128) (r : Fin 100000)
    (hr : r.val = win0_5.index t (0 : Fin 2) * 5000 + p.val) :
    (iblk0 V c 1 t : Vec Ideal S5000x128 .f32) (ix2 p k) = (V c main_arg0 : S100000x128.Idx → EReal) (ix2 r k) := by
  obtain ⟨-, -, e2, e3, -⟩ := idx_facts t
  unfold iblk0
  rw [View.read_apply]
  show V c main_arg0 _ = V c main_arg0 _
  refine congrArg _ ?_
  funext a
  apply Fin.ext
  match a with
  | ⟨0, _⟩ => show win0_1.index t (0 : Fin 2) * 5000 + 1 * p.val = r.val; omega
  | ⟨1, _⟩ => show win0_1.index t (1 : Fin 2) * 128 + 1 * k.val = k.val; omega

/-- The left weight's one block is the whole weight. -/
theorem wl_block_at (c : Dev nD) (t : Fin cfg0.N) (k j : Fin 128) :
    (iblk0 V c 2 t : Vec Ideal S128x128 .f32) (ix2 k j) = (V c main_v23 : S128x128.Idx → EReal) (ix2 k j) := by
  obtain ⟨-, -, -, -, e4, e5, -⟩ := idx_facts t
  unfold iblk0
  rw [View.read_apply]
  show V c main_v23 _ = V c main_v23 _
  refine congrArg _ ?_
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

/-- The right weight's one block is the whole weight. -/
theorem wr_block_at (c : Dev nD) (t : Fin cfg0.N) (k j : Fin 128) :
    (iblk0 V c 3 t : Vec Ideal S128x128 .f32) (ix2 k j) = (V c main_v24 : S128x128.Idx → EReal) (ix2 k j) := by
  obtain ⟨-, -, -, -, -, -, e6, e7, -⟩ := idx_facts t
  unfold iblk0
  rw [View.read_apply]
  show V c main_v24 _ = V c main_v24 _
  refine congrArg _ ?_
  funext a
  apply Fin.ext
  match a with
  | ⟨0, _⟩ => show win0_3.index t (0 : Fin 2) * 128 + 1 * k.val = k.val; omega
  | ⟨1, _⟩ => show win0_3.index t (1 : Fin 2) * 128 + 1 * j.val = j.val; omega

/-- The bias row's one block is the whole row. -/
theorem bias_block_at (c : Dev nD) (t : Fin cfg0.N) (j : Fin 128) :
    (iblk0 V c 4 t : Vec Ideal S1x128 .f32) (ix2 (0 : Fin 1) j) = (V c main_v25 : S1x128.Idx → EReal) (ix2 (0 : Fin 1) j) := by
  obtain ⟨-, -, -, -, -, -, -, -, e8, e9, -⟩ := idx_facts t
  unfold iblk0
  rw [View.read_apply]
  show V c main_v25 _ = V c main_v25 _
  refine congrArg _ ?_
  funext a
  apply Fin.ext
  match a with
  | ⟨0, _⟩ => show win0_4.index t (0 : Fin 2) * 1 + 1 * (0 : Fin 1).val = (0 : Fin 1).val; omega
  | ⟨1, _⟩ => show win0_4.index t (1 : Fin 2) * 128 + 1 * j.val = j.val; omega

/-- Where entry `(p, j)` of the output block at point `t` sits in the whole output. -/
theorem out_block_emb (t : Fin cfg0.N) (p : Fin 5000) (j : Fin 128) (r : Fin 100000)
    (hr : r.val = win0_5.index t (0 : Fin 2) * 5000 + p.val) :
    ((cfg0.win 5).blk t).view.emb (ix2 p j) = (ix2 r j : S100000x128.Idx) := by
  obtain ⟨-, -, -, -, -, -, -, -, -, -, e10, e11⟩ := idx_facts t
  funext a
  apply Fin.ext
  match a with
  | ⟨0, _⟩ => show win0_5.index t (0 : Fin 2) * 5000 + 1 * p.val = r.val; omega
  | ⟨1, _⟩ => show win0_5.index t (1 : Fin 2) * 128 + 1 * j.val = j.val; omega

/-- The layer with the clamp, as one function of the five arrays the region finds. -/
abbrev layer (c : Dev nD) : S100000x128.Idx → EReal :=
  Cert.Sage.relu 128 (Cert.Sage.combine 128 (V c main_v22) (V c main_arg0) (V c main_v23) (V c main_v24) (V c main_v25))

/-- What grid point `t` writes back is block `t` of the layer's whole-array value. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  obtain ⟨r, hr⟩ : ∃ r : Fin 100000, r.val = win0_5.index t (0 : Fin 2) * 5000 + p.val := by
    obtain ⟨-, -, -, -, -, -, -, -, -, -, e10, -⟩ := idx_facts t
    have hp : p.val < 5000 := p.isLt
    exact ⟨⟨win0_5.index t (0 : Fin 2) * 5000 + p.val, by omega⟩, rfl⟩
  show k0_pay1 (F := Ideal) (iblk0 V c 0 t) (iblk0 V c 1 t) (iblk0 V c 2 t) (iblk0 V c 3 t) (iblk0 V c 4 t) (ix2 p j)
      = layer V c (((cfg0.win 5).blk t).view.emb (ix2 p j))
  rw [out_block_emb t p j r hr]
  refine (payload_at _ _ _ _ _ p j).trans ?_
  show _ = max (Cert.Sage.combineAt 128 (V c main_v22) (V c main_arg0) (V c main_v23) (V c main_v24) (V c main_v25) r j)
      (Ideal.ofBits .f32 0x00000000#32)
  unfold Cert.Sage.combineAt
  exact congrArg₂ max (congrArg₂ (· + ·) (congrArg₂ (· + ·)
      (Finset.sum_congr rfl fun k _ => congrArg₂ (· * ·) (mean_block_at V c t p k r hr) (wl_block_at V c t k j))
      (Finset.sum_congr rfl fun k _ => congrArg₂ (· * ·) (self_block_at V c t p k r hr) (wr_block_at V c t k j)))
      (bias_block_at V c t j)) rfl

/-! ## The blocks cover the output -/

/-- An index of the output lies in point `t`'s block iff each coordinate lies in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the output is written back by the point whose block number is `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := ht
  obtain ⟨-, -, -, -, -, -, -, -, -, -, -, q1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the 20 points the output array holds the clamped layer, as one function of the arrays the region found. -/
theorem final (c : Dev nD) :
    (dat0 (F := Ideal) V c).arrAt 5 cfg0.N
      = Cert.Sage.relu 128 (Cert.Sage.combine 128 (V c main_v22) (V c main_arg0) (V c main_v23) (V c main_v24) (V c main_v25)) :=
  (dat0 (F := Ideal) V c).arrAt_eq_of_cover 5 (layer V c) (fun t _ => flushed_eq V c t) cover

end Cert.KernelIdeal.SageRegion0

end
-- ==== Proof.Region1.lean ====
/-
  The second hidden SAGE layer as the kernel computes it, one block of rows at a time, read back as one whole array.

  Same shapes and same arithmetic as the first layer, over this region's own five arrays (its second input is the array
  the first layer's region wrote): at each of the 20 grid points, rows `5000·t … 5000·t + 4999` of
      out[r, j] = max((Σₖ mean[r,k] · wl[k,j]  +  Σₖ x[r,k] · wr[k,j])  +  b[0,j],  +0.0).
  The body differs from the first layer's only by one more reshape of a block to its own shape, which is the identity;
  the product at an entry is the one already read for the first layer. The 20 blocks again cover the 100000 rows, so the
  output array is the layer's whole-array value.
-/
import proofs.«175238_j19155554140465_1_alg».proof.Proof.Region0

noncomputable section

open Idealize.ShloMosaic Idealize.ShloMosaic.TcCoe Idealize.SL.Sem

namespace Cert.KernelIdeal.SageRegion1

open Cert.KernelIdeal Cert.KernelIdeal.Gen Idealize.ShloMosaic.ValueIdx

/-! ## The body's arithmetic at an entry of a block -/

/-- Entry `(p, j)` of what the body stores, from the five blocks it loads: the two products, the bias row's entry `j`
    added to their sum, and the clamp below at zero. -/
theorem payload_at (x0 x1 : Vec Ideal S5000x128 .f32) (x2 x3 : Vec Ideal S128x128 .f32) (x4 : Vec Ideal S1x128 .f32) (p : Fin 5000) (j : Fin 128) :
    k1_pay1 (F := Ideal) x0 x1 x2 x3 x4 (ix2 p j)
      = max (((∑ k : Fin 128, x0 (ix2 p k) * x2 (ix2 k j)) + ∑ k : Fin 128, x1 (ix2 p k) * x3 (ix2 k j)) + x4 (ix2 (0 : Fin 1) j)) (Ideal.ofBits .f32 0x00000000#32) := by
  unfold k1_pay1
  simp only [shapeCast_self]
  rw [maximumf_apply, addf_apply, addf_apply, SageRegion0.matmul_at, SageRegion0.matmul_at, broadcastTo_1b_ab_apply, broadcast_apply]
  rfl

/-! ## The blocks, point by point -/

/-- The index maps over the 20 grid points: the two feature inputs move with the output, one block of 5000 rows per
    point; the two weights and the bias row stay at their one block; the output's row-block number is below 20. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) < 20 ∧ win1_5.index t (1 : Fin 2) = 0 :=
  (by decide +kernel : ∀ t : Fin grid1.N, _)

/-- Every one of the 20 row blocks of the output is some grid point's. -/
theorem idx_onto : ∀ q : Fin 20, ∃ t : Fin cfg1.N, win1_5.index t (0 : Fin 2) = q.val :=
  (by decide +kernel : ∀ q : Fin 20, ∃ t : Fin grid1.N, win1_5.index t (0 : Fin 2) = q.val)

variable (V : (c : Dev nD) → (b : Ref sig .tc) → Buf (Elt Ideal) ((c : Thread nD τ).loc b))

/-- Row `p` of the neighbourhood-mean block at point `t` is row `5000·(block number) + p` of the whole array. -/
theorem mean_block_at (c : Dev nD) (t : Fin cfg1.N) (p : Fin 5000) (k : Fin 128) (r : Fin 100000)
    (hr : r.val = win1_5.index t (0 : Fin 2) * 5000 + p.val) :
    (iblk1 V c 0 t : Vec Ideal S5000x128 .f32) (ix2 p k) = (V c main_v45 : S100000x128.Idx → EReal) (ix2 r k) := by
  obtain ⟨e0, e1, -⟩ := idx_facts t
  unfold iblk1
  rw [View.read_apply]
  show V c main_v45 _ = V c main_v45 _
  refine congrArg _ ?_
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The same for the block of the nodes' own features. -/
theorem self_block_at (c : Dev nD) (t : Fin cfg1.N) (p : Fin 5000) (k : Fin 128) (r : Fin 100000)
    (hr : r.val = win1_5.index t (0 : Fin 2) * 5000 + p.val) :
    (iblk1 V c 1 t : Vec Ideal S5000x128 .f32) (ix2 p k) = (V c main_v26 : S100000x128.Idx → EReal) (ix2 r k) := by
  obtain ⟨-, -, e2, e3, -⟩ := idx_facts t
  unfold iblk1
  rw [View.read_apply]
  show V c main_v26 _ = V c main_v26 _
  refine congrArg _ ?_
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The left weight's one block is the whole weight. -/
theorem wl_block_at (c : Dev nD) (t : Fin cfg1.N) (k j : Fin 128) :
    (iblk1 V c 2 t : Vec Ideal S128x128 .f32) (ix2 k j) = (V c main_v46 : S128x128.Idx → EReal) (ix2 k j) := by
  obtain ⟨-, -, -, -, e4, e5, -⟩ := idx_facts t
  unfold iblk1
  rw [View.read_apply]
  show V c main_v46 _ = V c main_v46 _
  refine congrArg _ ?_
  funext a
  apply Fin.ext
  match a with
  | ⟨0, _⟩ => show win1_2.index t (0 : Fin 2) * 128 + 1 * k.val = k.val; omega
  | ⟨1, _⟩ => show win1_2.index t (1 : Fin 2) * 128 + 1 * j.val = j.val; omega

/-- The right weight's one block is the whole weight. -/
theorem wr_block_at (c : Dev nD) (t : Fin cfg1.N) (k j : Fin 128) :
    (iblk1 V c 3 t : Vec Ideal S128x128 .f32) (ix2 k j) = (V c main_v47 : S128x128.Idx → EReal) (ix2 k j) := by
  obtain ⟨-, -, -, -, -, -, e6, e7, -⟩ := idx_facts t
  unfold iblk1
  rw [View.read_apply]
  show V c main_v47 _ = V c main_v47 _
  refine congrArg _ ?_
  funext a
  apply Fin.ext
  match a with
  | ⟨0, _⟩ => show win1_3.index t (0 : Fin 2) * 128 + 1 * k.val = k.val; omega
  | ⟨1, _⟩ => show win1_3.index t (1 : Fin 2) * 128 + 1 * j.val = j.val; omega

/-- The bias row's one block is the whole row. -/
theorem bias_block_at (c : Dev nD) (t : Fin cfg1.N) (j : Fin 128) :
    (iblk1 V c 4 t : Vec Ideal S1x128 .f32) (ix2 (0 : Fin 1) j) = (V c main_v48 : S1x128.Idx → EReal) (ix2 (0 : Fin 1) j) := by
  obtain ⟨-, -, -, -, -, -, -, -, e8, e9, -⟩ := idx_facts t
  unfold iblk1
  rw [View.read_apply]
  show V c main_v48 _ = V c main_v48 _
  refine congrArg _ ?_
  funext a
  apply Fin.ext
  match a with
  | ⟨0, _⟩ => show win1_4.index t (0 : Fin 2) * 1 + 1 * (0 : Fin 1).val = (0 : Fin 1).val; omega
  | ⟨1, _⟩ => show win1_4.index t (1 : Fin 2) * 128 + 1 * j.val = j.val; omega

/-- Where entry `(p, j)` of the output block at point `t` sits in the whole output. -/
theorem out_block_emb (t : Fin cfg1.N) (p : Fin 5000) (j : Fin 128) (r : Fin 100000)
    (hr : r.val = win1_5.index t (0 : Fin 2) * 5000 + p.val) :
    ((cfg1.win 5).blk t).view.emb (ix2 p j) = (ix2 r j : S100000x128.Idx) := by
  obtain ⟨-, -, -, -, -, -, -, -, -, -, e10, e11⟩ := idx_facts t
  funext a
  apply Fin.ext
  match a with
  | ⟨0, _⟩ => show win1_5.index t (0 : Fin 2) * 5000 + 1 * p.val = r.val; omega
  | ⟨1, _⟩ => show win1_5.index t (1 : Fin 2) * 128 + 1 * j.val = j.val; omega

/-- The layer with the clamp, as one function of the five arrays the region finds. -/
abbrev layer (c : Dev nD) : S100000x128.Idx → EReal :=
  Cert.Sage.relu 128 (Cert.Sage.combine 128 (V c main_v45) (V c main_v26) (V c main_v46) (V c main_v47) (V c main_v48))

/-- What grid point `t` writes back is block `t` of the layer's whole-array value. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero SageRegion0.hz]
  simp only [View.ld_unit_zero (S := S5000x128) SageRegion0.hz, View.ld_unit_zero (S := S128x128) SageRegion0.hz, View.ld_unit_zero (S := S1x128) SageRegion0.hz]
  funext y
  obtain ⟨p, j, rfl⟩ : ∃ (p : Fin 5000) (j : Fin 128), y = ix2 p j := ⟨y 0, y 1, eq_ix2 y⟩
  obtain ⟨r, hr⟩ : ∃ r : Fin 100000, r.val = win1_5.index t (0 : Fin 2) * 5000 + p.val := by
    obtain ⟨-, -, -, -, -, -, -, -, -, -, e10, -⟩ := idx_facts t
    have hp : p.val < 5000 := p.isLt
    exact ⟨⟨win1_5.index t (0 : Fin 2) * 5000 + p.val, by omega⟩, rfl⟩
  show k1_pay1 (F := Ideal) (iblk1 V c 0 t) (iblk1 V c 1 t) (iblk1 V c 2 t) (iblk1 V c 3 t) (iblk1 V c 4 t) (ix2 p j)
      = layer V c (((cfg1.win 5).blk t).view.emb (ix2 p j))
  rw [out_block_emb t p j r hr]
  refine (payload_at _ _ _ _ _ p j).trans ?_
  show _ = max (Cert.Sage.combineAt 128 (V c main_v45) (V c main_v26) (V c main_v46) (V c main_v47) (V c main_v48) r j)
      (Ideal.ofBits .f32 0x00000000#32)
  unfold Cert.Sage.combineAt
  exact congrArg₂ max (congrArg₂ (· + ·) (congrArg₂ (· + ·)
      (Finset.sum_congr rfl fun k _ => congrArg₂ (· * ·) (mean_block_at V c t p k r hr) (wl_block_at V c t k j))
      (Finset.sum_congr rfl fun k _ => congrArg₂ (· * ·) (self_block_at V c t p k r hr) (wr_block_at V c t k j)))
      (bias_block_at V c t j)) rfl

/-! ## The blocks cover the output -/

/-- An index of the output lies in point `t`'s block iff each coordinate lies in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Row `r` of the output is written back by the point whose block number is `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := ht
  obtain ⟨-, -, -, -, -, -, -, -, -, -, -, q1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the 20 points the output array holds the clamped layer, as one function of the arrays the region found. -/
theorem final (c : Dev nD) :
    (dat1 (F := Ideal) V c).arrAt 5 cfg1.N
      = Cert.Sage.relu 128 (Cert.Sage.combine 128 (V c main_v45) (V c main_v26) (V c main_v46) (V c main_v47) (V c main_v48)) :=
  (dat1 (F := Ideal) V c).arrAt_eq_of_cover 5 (layer V c) (fun t _ => flushed_eq V c t) cover

end Cert.KernelIdeal.SageRegion1

end
-- ==== Proof.Region2.lean ====
/-
  The third layer's combine step, as one function of whole arrays.

  The region walks a grid of 20 points. At point t it takes rows 5000·t … 5000·t + 4999 of the two 100000 × 128
  inputs (the neighbourhood mean and the nodes' own features), the whole 128 × 64 left and right weights and the
  1 × 64 bias row, and writes rows 5000·t … 5000·t + 4999 of the 100000 × 64 output. Over the extended reals the
  body's value at row p, channel j of the block is
      (Σₖ mean[p,k] · wl[k,j]  +  Σₖ x[p,k] · wr[k,j])  +  b[0,j],
  associated exactly so. The 20 row blocks are disjoint and fill the output, so after the region the output array is
  that expression at every row and channel: the layer's combine with 64 output channels and no clamp.

  The steps: one contraction read at an index; the body's arithmetic at an index; where each window's block sits at a
  point, decided over the 20 points; each input block as rows of its array; what a point writes back; the blocks
  fill the array; the array after the region.
-/
import proofs.«175238_j19155554140465_1_alg».proof.Proof.Layer
import proofs.«175238_j19155554140465_1_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem

namespace Cert.KernelIdeal.SageRegion2

open Cert.KernelIdeal Cert.KernelIdeal.Gen
open Idealize.ShloMosaic.ValueIdx

/-! ## One contraction read at an index

The contraction pairs axis 1 of the 5000 × 128 operand with axis 0 of the 128 × 64 operand; the result's two axes
are the operands' free ones. At result index (p, j) and contraction index k the operands are therefore read at
(p, k) and (k, j). -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A matrix product into a zero accumulator, at row p and channel j: the sum over the 128 shared channels. -/
theorem contraction_apply (a : FVec Ideal S5000x128 .bf16) (w : FVec Ideal S128x64 .bf16) (p : Fin 5000) (j : Fin 64) :
    FloatOps.matmul dot_S5000x128_S128x64_S5000x64_1_0_0_1_n_n none a w (constant (F := Ideal) S5000x64 .f32 0x00000000#32) (ix2 p j)
      = ∑ k : Fin 128, a (ix2 p k) * w (ix2 k j) := by
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun ax => Fin.ext (by
    match ax with
    | ⟨0, _⟩ => exact lhs_row _ _
    | ⟨1, _⟩ => exact (lhs_col _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun ax => Fin.ext (by
    match ax with
    | ⟨0, _⟩ => exact (rhs_row _ _).trans hk
    | ⟨1, _⟩ => exact rhs_col _ _)
  rw [el, er]

/-! ## The body's arithmetic at an index

The shape casts are between equal shapes and the changes of float format are the identity on extended reals, so at
row p, channel j of its block the body computes the two contractions, their sum, and the bias row added on. -/

theorem payload_apply (x0 x1 : Vec Ideal S5000x128 .f32) (x2 x3 : Vec Ideal S128x64 .f32) (x4 : Vec Ideal S1x64 .f32) (p : Fin 5000) (j : Fin 64) :
    k2_pay1 (F := Ideal) x0 x1 x2 x3 x4 (ix2 p j)
      = ((∑ k : Fin 128, x0 (ix2 p k) * x2 (ix2 k j)) + ∑ k : Fin 128, x1 (ix2 p k) * x3 (ix2 k j)) + x4 (ix2 (0 : Fin 1) j) := by
  unfold k2_pay1
  simp only [shapeCast_self]
  refine (addf_apply _ _ _).trans ?_
  refine congrArg₂ (· + ·) ?_ ?_
  · refine (addf_apply _ _ _).trans ?_
    refine congrArg₂ (· + ·) ?_ ?_
    · exact contraction_apply _ _ p j
    · exact contraction_apply _ _ p j
  · exact broadcastTo_1b_ab_apply _ _ p j

/-! ## Where each window's block sits

The grid has 20 points. At point t the two row-blocked inputs and the output all sit at row block t (5000 rows
each), column block 0; the two weight matrices and the bias row are whole, at block (0, 0). -/

theorem origin : (![0, 0] : Fin 2 → Nat) = fun _ => 0 := funext fun a => by fin_cases a <;> rfl

/-- The index maps, decided once over the grid. -/
theorem block_indices : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) < 20
    ∧ win2_5.index t (1 : Fin 2) = 0 :=
  (by decide +kernel : ∀ t : Fin grid2.N, _)

/-- Every one of the 20 row blocks of the output is some point's. -/
theorem row_block_onto : ∀ q : Fin 20, ∃ t : Fin cfg2.N, win2_5.index t (0 : Fin 2) = q.val ∧ win2_5.index t (1 : Fin 2) = 0 :=
  (by decide +kernel : ∀ q : Fin 20, ∃ t : Fin grid2.N, win2_5.index t (0 : Fin 2) = q.val ∧ win2_5.index t (1 : Fin 2) = 0)

variable (V : (c : Dev nD) → (b : Ref sig .tc) → Buf (Elt Ideal) ((c : Thread nD τ).loc b))

/-! ## The input blocks as rows of their arrays -/

/-- Row p of the neighbourhood-mean block at point t is row (block index × 5000 + p) of the array. -/
theorem mean_block (c : Dev nD) (t : Fin cfg2.N) (p : Fin 5000) (k : Fin 128) (r : Fin 100000)
    (hr : r.val = win2_5.index t (0 : Fin 2) * 5000 + p.val) :
    (iblk2 V c 0 t : Vec Ideal S5000x128 .f32) (ix2 p k) = (V c main_v68 : S100000x128.Idx → EReal) (ix2 r k) := by
  obtain ⟨e0, e1, -⟩ := block_indices t
  unfold iblk2
  rw [View.read_apply]
  show (V c main_v68 : S100000x128.Idx → EReal) _ = _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The same for the nodes' own features. -/
theorem self_block (c : Dev nD) (t : Fin cfg2.N) (p : Fin 5000) (k : Fin 128) (r : Fin 100000)
    (hr : r.val = win2_5.index t (0 : Fin 2) * 5000 + p.val) :
    (iblk2 V c 1 t : Vec Ideal S5000x128 .f32) (ix2 p k) = (V c main_v49 : S100000x128.Idx → EReal) (ix2 r k) := by
  obtain ⟨-, -, e0, e1, -⟩ := block_indices t
  unfold iblk2
  rw [View.read_apply]
  show (V c main_v49 : S100000x128.Idx → EReal) _ = _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- The left weight's one block is the whole matrix. -/
theorem left_weight_block (c : Dev nD) (t : Fin cfg2.N) (k : Fin 128) (j : Fin 64) :
    (iblk2 V c 2 t : Vec Ideal S128x64 .f32) (ix2 k j) = (V c main_v69 : S128x64.Idx → EReal) (ix2 k j) := by
  obtain ⟨-, -, -, -, e0, e1, -⟩ := block_indices t
  unfold iblk2
  rw [View.read_apply]
  show (V c main_v69 : S128x64.Idx → EReal) _ = _
  congr 1
  funext a
  apply Fin.ext
  match a with
  | ⟨0, _⟩ => show win2_2.index t (0 : Fin 2) * 128 + 1 * k.val = k.val; omega
  | ⟨1, _⟩ => show win2_2.index t (1 : Fin 2) * 64 + 1 * j.val = j.val; omega

/-- The right weight's one block is the whole matrix. -/
theorem right_weight_block (c : Dev nD) (t : Fin cfg2.N) (k : Fin 128) (j : Fin 64) :
    (iblk2 V c 3 t : Vec Ideal S128x64 .f32) (ix2 k j) = (V c main_v70 : S128x64.Idx → EReal) (ix2 k j) := by
  obtain ⟨-, -, -, -, -, -, e0, e1, -⟩ := block_indices t
  unfold iblk2
  rw [View.read_apply]
  show (V c main_v70 : S128x64.Idx → EReal) _ = _
  congr 1
  funext a
  apply Fin.ext
  match a with
  | ⟨0, _⟩ => show win2_3.index t (0 : Fin 2) * 128 + 1 * k.val = k.val; omega
  | ⟨1, _⟩ => show win2_3.index t (1 : Fin 2) * 64 + 1 * j.val = j.val; omega

/-- The bias row's one block is the whole row. -/
theorem bias_block (c : Dev nD) (t : Fin cfg2.N) (j : Fin 64) :
    (iblk2 V c 4 t : Vec Ideal S1x64 .f32) (ix2 (0 : Fin 1) j) = (V c main_v71 : S1x64.Idx → EReal) (ix2 (0 : Fin 1) j) := by
  obtain ⟨-, -, -, -, -, -, -, -, e0, e1, -⟩ := block_indices t
  unfold iblk2
  rw [View.read_apply]
  show (V c main_v71 : S1x64.Idx → EReal) _ = _
  congr 1
  funext a
  apply Fin.ext
  match a with
  | ⟨0, _⟩ => show win2_4.index t (0 : Fin 2) * 1 + 1 * (0 : Fin 1).val = (0 : Fin 1).val; omega
  | ⟨1, _⟩ => show win2_4.index t (1 : Fin 2) * 64 + 1 * j.val = j.val; omega

/-! ## What a point writes back -/

/-- Point t writes back block t of the layer's value on the arrays as the region finds them. -/
theorem block_written (c : Dev nD) (t : Fin cfg2.N) :
    (dat2 (F := Ideal) V c).flushed 5 t = ((cfg2.win 5).blk t).view.read (Elt Ideal)
      (Cert.Sage.combine 64 (V c main_v68) (V c main_v49) (V c main_v69) (V c main_v70) (V c main_v71)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x64) origin, View.ld_unit_zero (S := S1x64) origin]
  funext y
  obtain ⟨p, j, rfl⟩ : ∃ (p : Fin 5000) (j : Fin 64), y = ix2 p j := ⟨y 0, y 1, eq_ix2 y⟩
  obtain ⟨-, -, -, -, -, -, -, -, -, -, b0, b1⟩ := block_indices t
  have hp : p.val < 5000 := p.isLt
  have hj : j.val < 64 := j.isLt
  refine (payload_apply _ _ _ _ _ p j).trans ?_
  rw [View.read_apply]
  show _ = Cert.Sage.combine 64 (V c main_v68) (V c main_v49) (V c main_v69) (V c main_v70) (V c main_v71)
      (ix2 (⟨win2_5.index t (0 : Fin 2) * 5000 + 1 * p.val, by omega⟩ : Fin 100000) (⟨win2_5.index t (1 : Fin 2) * 64 + 1 * j.val, by omega⟩ : Fin 64))
  rw [Cert.Sage.combine_ix2]
  unfold Cert.Sage.combineAt
  have ej : (⟨win2_5.index t (1 : Fin 2) * 64 + 1 * j.val, by omega⟩ : Fin 64) = j := Fin.ext (by show win2_5.index t (1 : Fin 2) * 64 + 1 * j.val = j.val; omega)
  rw [ej]
  refine congrArg₂ (· + ·) (congrArg₂ (· + ·) ?_ ?_) ?_
  · refine Finset.sum_congr rfl fun k _ => ?_
    rw [mean_block V c t p k ⟨win2_5.index t (0 : Fin 2) * 5000 + 1 * p.val, by omega⟩ (by show win2_5.index t (0 : Fin 2) * 5000 + 1 * p.val = _; omega), left_weight_block V c t k j]
  · refine Finset.sum_congr rfl fun k _ => ?_
    rw [self_block V c t p k ⟨win2_5.index t (0 : Fin 2) * 5000 + 1 * p.val, by omega⟩ (by show win2_5.index t (0 : Fin 2) * 5000 + 1 * p.val = _; omega), right_weight_block V c t k j]
  · exact bias_block V c t j

/-! ## The blocks fill the array -/

/-- An index of the output array is in point t's block iff each coordinate is in the block's range on its axis. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v72).slice (win2_5.rect t)).set ↔ _
  rw [View.set_slice_whole, Rect.mem_set_unit]
  exact Iff.rfl

/-- Row r of the output lies in row block r / 5000, which some point writes back. -/
theorem rows_covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, q0, q1⟩ := row_block_onto ⟨(i 0).val / 5000, by omega⟩
  have q0' : win2_5.index t (0 : Fin 2) = (i 0).val / 5000 := q0
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## The output array after the region -/

theorem final (V : (c : Dev nD) → (b : Ref sig .tc) → Buf (Elt Ideal) ((c : Thread nD τ).loc b)) (c : Dev nD) :
    (dat2 (F := Ideal) V c).arrAt 5 cfg2.N
      = Cert.Sage.combine 64 (V c main_v68) (V c main_v49) (V c main_v69) (V c main_v70) (V c main_v71) :=
  (dat2 (F := Ideal) V c).arrAt_eq_of_cover 5 _ (fun t _ => block_written V c t) rows_covered

end Cert.KernelIdeal.SageRegion2

end
-- ==== Proof.KernelValue.lean ====
/-
  The kernel program's result buffer holds the network function of its arguments.

  The last boundary's contents are a fold of the launch memory through three stretches of host operations and three
  regions. Read backwards: the third region's output array is the output layer of what the region found (the
  neighbourhood mean of the second region's output, that output, the transposed weights, the bias row — each read off the
  third stretch); the second region's output is the second hidden layer of what IT found, read off the second stretch;
  the first region's the first hidden layer of the arguments. Buffers a stretch or a region does not write keep their
  contents, which walks the edge rows and the later layers' weights back to the launch memory.
-/
import proofs.«175238_j19155554140465_1_alg».proof.Proof.HostDefs
import proofs.«175238_j19155554140465_1_alg».proof.Proof.Stretch0
import proofs.«175238_j19155554140465_1_alg».proof.Proof.Stretch1
import proofs.«175238_j19155554140465_1_alg».proof.Proof.Stretch2
import proofs.«175238_j19155554140465_1_alg».proof.Proof.Region0
import proofs.«175238_j19155554140465_1_alg».proof.Proof.Region1
import proofs.«175238_j19155554140465_1_alg».proof.Proof.Region2
import proofs.«175238_j19155554140465_1_alg».proof.Proof.Gen.KernelIdeal.Frame

set_option maxRecDepth 16384

noncomputable section

open Idealize.ShloMosaic Idealize.ShloMosaic.TcCoe Idealize.SL.Sem

namespace Cert.KernelIdeal.SageValue

open Cert.KernelIdeal Cert.KernelIdeal.Gen Cert.KernelIdeal.SageHost

variable (m : (ℓ : Loc nD τ sig) → Buf (Elt Ideal) ℓ) (ρ : Dev nD → PrngReg)

/-! ## The edge rows and the later layers' arguments at each boundary -/

theorem W2_v1 (c : Dev nD) : W2 m ρ c (Proc.devRef .tc main_v1) = srcRow (m ((c : Thread nD τ).loc main_arg1)) :=
  (W2_of_ne m ρ c main_v1 (by decide)).trans (s0_v1 (W0 m ρ c))
theorem W2_v3 (c : Dev nD) : W2 m ρ c (Proc.devRef .tc main_v3) = dstRow (m ((c : Thread nD τ).loc main_arg1)) :=
  (W2_of_ne m ρ c main_v3 (by decide)).trans (s0_v3 (W0 m ρ c))
theorem W2_arg5 (c : Dev nD) : W2 m ρ c (Proc.devRef .tc main_arg5) = m ((c : Thread nD τ).loc main_arg5) :=
  (W2_of_ne m ρ c main_arg5 (by decide)).trans (s0_arg5 (W0 m ρ c))
theorem W2_arg6 (c : Dev nD) : W2 m ρ c (Proc.devRef .tc main_arg6) = m ((c : Thread nD τ).loc main_arg6) :=
  (W2_of_ne m ρ c main_arg6 (by decide)).trans (s0_arg6 (W0 m ρ c))
theorem W2_arg7 (c : Dev nD) : W2 m ρ c (Proc.devRef .tc main_arg7) = m ((c : Thread nD τ).loc main_arg7) :=
  (W2_of_ne m ρ c main_arg7 (by decide)).trans (s0_arg7 (W0 m ρ c))
theorem W2_arg8 (c : Dev nD) : W2 m ρ c (Proc.devRef .tc main_arg8) = m ((c : Thread nD τ).loc main_arg8) :=
  (W2_of_ne m ρ c main_arg8 (by decide)).trans (s0_arg8 (W0 m ρ c))
theorem W2_arg9 (c : Dev nD) : W2 m ρ c (Proc.devRef .tc main_arg9) = m ((c : Thread nD τ).loc main_arg9) :=
  (W2_of_ne m ρ c main_arg9 (by decide)).trans (s0_arg9 (W0 m ρ c))
theorem W2_arg10 (c : Dev nD) : W2 m ρ c (Proc.devRef .tc main_arg10) = m ((c : Thread nD τ).loc main_arg10) :=
  (W2_of_ne m ρ c main_arg10 (by decide)).trans (s0_arg10 (W0 m ρ c))

theorem W4_v1 (c : Dev nD) : W4 m ρ c (Proc.devRef .tc main_v1) = srcRow (m ((c : Thread nD τ).loc main_arg1)) :=
  (W4_of_ne m ρ c main_v1 (by decide)).trans ((s1_v1 (W2 m ρ c)).trans (W2_v1 m ρ c))
theorem W4_v3 (c : Dev nD) : W4 m ρ c (Proc.devRef .tc main_v3) = dstRow (m ((c : Thread nD τ).loc main_arg1)) :=
  (W4_of_ne m ρ c main_v3 (by decide)).trans ((s1_v3 (W2 m ρ c)).trans (W2_v3 m ρ c))
theorem W4_arg8 (c : Dev nD) : W4 m ρ c (Proc.devRef .tc main_arg8) = m ((c : Thread nD τ).loc main_arg8) :=
  (W4_of_ne m ρ c main_arg8 (by decide)).trans ((s1_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((s1_arg9 (W2 m ρ c)).trans (W2_arg9 m ρ c))
theorem W4_arg10 (c : Dev nD) : W4 m ρ c (Proc.devRef .tc main_arg10) = m ((c : Thread nD τ).loc main_arg10) :=
  (W4_of_ne m ρ c main_arg10 (by decide)).trans ((s1_arg10 (W2 m ρ c)).trans (W2_arg10 m ρ c))

/-! ## The three regions' outputs -/

/-- The first region leaves the first hidden layer of the arguments. -/
theorem out0 (c : Dev nD) : W2 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  have e22 : V1 m ρ c main_v22 = aggregate (m ((c : Thread nD τ).loc main_arg0)) (srcRow (m ((c : Thread nD τ).loc main_arg1)))
      (dstRow (m ((c : Thread nD τ).loc main_arg1))) := s0_v22 (W0 m ρ c)
  have e0 : V1 m ρ c main_arg0 = m ((c : Thread nD τ).loc main_arg0) := s0_arg0 (W0 m ρ c)
  have e23 : V1 m ρ c main_v23 = transpose S128x128 [1, 0] (m ((c : Thread nD τ).loc main_arg2)) transposes_S128x128_S128x128_1_0 :=
    s0_v23 (W0 m ρ c)
  have e24 : V1 m ρ c main_v24 = transpose S128x128 [1, 0] (m ((c : Thread nD τ).loc main_arg3)) transposes_S128x128_S128x128_1_0 :=
    s0_v24 (W0 m ρ c)
  have e25 : V1 m ρ c main_v25 = shapeCast S1x128 (m ((c : Thread nD τ).loc main_arg4)) shapeCasts_S128_S1x128 := s0_v25 (W0 m ρ c)
  refine (W2_arr m ρ c 5).trans ((Cert.KernelIdeal.SageRegion0.final (V1 m ρ) c).trans ?_)
  rw [e22, e0, e23, e24, e25]
  rfl

/-- The second region leaves the second hidden layer, of the first region's output. -/
theorem out1 (c : Dev nD) : W4 m ρ c (Proc.devRef .tc main_v49)
    = hidden (W2 m ρ c (Proc.devRef .tc main_v26)) (m ((c : Thread nD τ).loc main_arg1)) (m ((c : Thread nD τ).loc main_arg5))
        (m ((c : Thread nD τ).loc main_arg6)) (m ((c : Thread nD τ).loc main_arg7)) := by
  have e45 : V3 m ρ c main_v45 = aggregate (W2 m ρ c (Proc.devRef .tc main_v26)) (srcRow (m ((c : Thread nD τ).loc main_arg1)))
      (dstRow (m ((c : Thread nD τ).loc main_arg1))) := by
    refine (s1_v45 (W2 m ρ c)).trans ?_
    rw [W2_v1, W2_v3]
  have e26 : V3 m ρ c main_v26 = W2 m ρ c (Proc.devRef .tc main_v26) := s1_v26 (W2 m ρ c)
  have e46 : V3 m ρ c main_v46 = transpose S128x128 [1, 0] (m ((c : Thread nD τ).loc main_arg5)) transposes_S128x128_S128x128_1_0 := by
    refine (s1_v46 (W2 m ρ c)).trans ?_
    rw [W2_arg5]
  have e47 : V3 m ρ c main_v47 = transpose S128x128 [1, 0] (m ((c : Thread nD τ).loc main_arg6)) transposes_S128x128_S128x128_1_0 := by
    refine (s1_v47 (W2 m ρ c)).trans ?_
    rw [W2_arg6]
  have e48 : V3 m ρ c main_v48 = shapeCast S1x128 (m ((c : Thread nD τ).loc main_arg7)) shapeCasts_S128_S1x128 := by
    refine (s1_v48 (W2 m ρ c)).trans ?_
    rw [W2_arg7]
  refine (W4_arr m ρ c 5).trans ((Cert.KernelIdeal.SageRegion1.final (V3 m ρ) c).trans ?_)
  rw [e45, e26, e46, e47, e48]
  rfl

/-- The third region leaves the output layer, of the second region's output. -/
theorem out2 (c : Dev nD) : W6 m ρ c (Proc.devRef .tc main_v72)
    = output (W4 m ρ c (Proc.devRef .tc main_v49)) (m ((c : Thread nD τ).loc main_arg1)) (m ((c : Thread nD τ).loc main_arg8))
        (m ((c : Thread nD τ).loc main_arg9)) (m ((c : Thread nD τ).loc main_arg10)) := by
  have e68 : V5 m ρ c main_v68 = aggregate (W4 m ρ c (Proc.devRef .tc main_v49)) (srcRow (m ((c : Thread nD τ).loc main_arg1)))
      (dstRow (m ((c : Thread nD τ).loc main_arg1))) := by
    refine (s2_v68 (W4 m ρ c)).trans ?_
    rw [W4_v1, W4_v3]
  have e49 : V5 m ρ c main_v49 = W4 m ρ c (Proc.devRef .tc main_v49) := s2_v49 (W4 m ρ c)
  have e69 : V5 m ρ c main_v69 = transpose S128x64 [1, 0] (m ((c : Thread nD τ).loc main_arg8)) transposes_S64x128_S128x64_1_0 := by
    refine (s2_v69 (W4 m ρ c)).trans ?_
    rw [W4_arg8]
  have e70 : V5 m ρ c main_v70 = transpose S128x64 [1, 0] (m ((c : Thread nD τ).loc main_arg9)) transposes_S64x128_S128x64_1_0 := by
    refine (s2_v70 (W4 m ρ c)).trans ?_
    rw [W4_arg9]
  have e71 : V5 m ρ c main_v71 = shapeCast S1x64 (m ((c : Thread nD τ).loc main_arg10)) shapeCasts_S64_S1x64 := by
    refine (s2_v71 (W4 m ρ c)).trans ?_
    rw [W4_arg10]
  refine (W6_arr m ρ c 5).trans ((Cert.KernelIdeal.SageRegion2.final (V5 m ρ) c).trans ?_)
  rw [e68, e49, e69, e70, e71]
  rfl

/-- The result buffer's last contents: the network function of the arguments as launched. -/
theorem result_eq (c : Dev nD) : W6 m ρ c (Proc.devRef .tc main_v72)
    = network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [out2, out1, out0]
  rfl

end Cert.KernelIdeal.SageValue

end
-- ==== Proof.RefLayer.lean ====
/-
  The reference's SAGE layer, read index by index.

  On whole `[100000, 128]` arrays the reference forms
      contraction(mean, wl) + contraction(x, wr) + (the bias vector made a row, the row repeated down the nodes),
  and on the two hidden layers takes the maximum with an array of `+0.0`. Over the extended reals each contraction is the
  plain sum over the 128 contracted channels, a repeated array reads its operand, and the sum and the maximum act element by
  element; so at node `r` and channel `j` the value is
      (Σₖ mean[r,k] · wl[k,j]  +  Σₖ x[r,k] · wr[k,j])  +  b[j]
  associated exactly as the layer's specification associates it, whose bias row `[1, C]` is the same vector reshaped and so
  reads `b[j]` at `(0, j)`. The operand arrays are arbitrary: nothing about their values is used.
-/
import proofs.«175238_j19155554140465_1_alg».proof.Proof.Layer
import proofs.«175238_j19155554140465_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem

namespace Cert.ReferenceIdeal.SageLayer

open Cert.ReferenceIdeal Cert.ReferenceIdeal.Gen
open Idealize.ShloMosaic.ValueIdx

/-! ## The two contractions at an index -/

/-- The host contraction of a `[100000,128]` array with a `[128,128]` array, read at node `r` and channel `j`:
    over the extended reals it is the plain sum over the 128 contracted channels. -/
theorem dotGeneral128_apply (l : FVec Ideal S100000x128 .f32) (w : FVec Ideal S128x128 .f32) (r : Fin 100000) (j : Fin 128) :
    Host.dotGeneral (F := Ideal) dot_S100000x128_S128x128_S100000x128_1_0_0_1_n_n none l w (ix2 r j)
      = ∑ k : Fin 128, l (ix2 r k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact Read.lhs_main_v24_0 _ _
    | ⟨1, _⟩ => exact (Read.lhs_main_v24_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (Read.rhs_main_v24_0 _ _).trans hk
    | ⟨1, _⟩ => exact Read.rhs_main_v24_1 _ _)
  rw [el, er]

/-- The host contraction of a `[100000,128]` array with a `[128,64]` array, read at node `r` and channel `j`:
    over the extended reals it is the plain sum over the 128 contracted channels. -/
theorem dotGeneral64_apply (l : FVec Ideal S100000x128 .f32) (w : FVec Ideal S128x64 .f32) (r : Fin 100000) (j : Fin 64) :
    Host.dotGeneral (F := Ideal) dot_S100000x128_S128x64_S100000x64_1_0_0_1_n_n none l w (ix2 r j)
      = ∑ k : Fin 128, l (ix2 r k) * w (ix2 k j) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r j) ((ValueIdx.contrEquiv1 dot_S100000x128_S128x64_S100000x64_1_0_0_1_n_n 128 rfl rfl).symm k) = ix2 r k := funext fun a => Fin.ext (by
    match a with
    | ⟨0, _⟩ => exact Read.lhs_main_v80_0 _ _
    | ⟨1, _⟩ => exact (Read.lhs_main_v80_1 _ _).trans hk)
  have er : dot_S100000x128_S128x64_S100000x64_1_0_0_1_n_n.rhsIdx (ix2 r j) ((ValueIdx.contrEquiv1 dot_S100000x128_S128x64_S100000x64_1_0_0_1_n_n 128 rfl rfl).symm k) = ix2 k j := funext fun a => Fin.ext (by
    match a with
    | ⟨0, _⟩ => exact (Read.rhs_main_v80_0 _ _).trans hk
    | ⟨1, _⟩ => exact Read.rhs_main_v80_1 _ _)
  rw [el, er]

/-! ## The repeated bias and the repeated zero at an index -/

/-- The bias vector, made a row and then repeated down the 100000 nodes, reads at `(r, j)` the vector at `j`. -/
theorem bias128_apply (b : FVec Ideal S128 .f32)
    (hb1 : S128.BroadcastsInDim S1x128 (![1] : Fin 1 → Fin S1x128.rank))
    (hb2 : S1x128.BroadcastsInDim S100000x128 (![0, 1] : Fin 2 → Fin S100000x128.rank)) (r : Fin 100000) (j : Fin 128) :
    broadcastInDim S100000x128 ![0, 1] hb2 (broadcastInDim S1x128 ![1] hb1 b) (ix2 r j) = b (ix1 j) :=
  (broadcastInDim_apply _ hb2 (broadcastInDim S1x128 ![1] hb1 b) (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ hb1 b (ix2 (0 : Fin 1) j) (ix1 j) (fun a => match a with
    | ⟨0, _⟩ => by show j.val = if (128 : Nat) = 1 then 0 else j.val; rw [if_neg (by decide)]))

/-- The bias vector, made a row and then repeated down the 100000 nodes, reads at `(r, j)` the vector at `j`. -/
theorem bias64_apply (b : FVec Ideal S64 .f32)
    (hb1 : S64.BroadcastsInDim S1x64 (![1] : Fin 1 → Fin S1x64.rank))
    (hb2 : S1x64.BroadcastsInDim S100000x64 (![0, 1] : Fin 2 → Fin S100000x64.rank)) (r : Fin 100000) (j : Fin 64) :
    broadcastInDim S100000x64 ![0, 1] hb2 (broadcastInDim S1x64 ![1] hb1 b) (ix2 r j) = b (ix1 j) :=
  (broadcastInDim_apply _ hb2 (broadcastInDim S1x64 ![1] hb1 b) (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans
  (broadcastInDim_apply _ hb1 b (ix2 (0 : Fin 1) j) (ix1 j) (fun a => match a with
    | ⟨0, _⟩ => by show j.val = if (64 : Nat) = 1 then 0 else j.val; rw [if_neg (by decide)]))

/-- The scalar `+0.0` repeated over the whole `[100000, 128]` array reads that word everywhere. -/
theorem zero128_apply (hb0 : S_.BroadcastsInDim S100000x128 (![] : Fin 0 → Fin S100000x128.rank)) (r : Fin 100000) (j : Fin 128) :
    broadcastInDim S100000x128 ![] hb0 (constant (F := Ideal) S_ .f32 0x00000000#32) (ix2 r j) = Ideal.ofBits .f32 0x00000000#32 :=
  (broadcastInDim_apply _ hb0 (constant (F := Ideal) S_ .f32 0x00000000#32) (ix2 r j) ix0 (fun a => a.elim0)).trans
    (constant_apply _ _)

/-! ## The layer -/

/-- A hidden layer of the reference (128 output channels, clamped below at zero) is the specification's layer of the same
    arrays, the bias vector read as the row `[1, 128]`. -/
theorem layer128 (mean x : FVec Ideal S100000x128 .f32) (wl wr : FVec Ideal S128x128 .f32) (b : FVec Ideal S128 .f32)
    (h : S128.ShapeCasts S1x128)
    (hb1 : S128.BroadcastsInDim S1x128 (![1] : Fin 1 → Fin S1x128.rank))
    (hb2 : S1x128.BroadcastsInDim S100000x128 (![0, 1] : Fin 2 → Fin S100000x128.rank))
    (hb0 : S_.BroadcastsInDim S100000x128 (![] : Fin 0 → Fin S100000x128.rank)) :
    maximumf (addf (addf (Host.dotGeneral (F := Ideal) dot_S100000x128_S128x128_S100000x128_1_0_0_1_n_n none mean wl)
        (Host.dotGeneral (F := Ideal) dot_S100000x128_S128x128_S100000x128_1_0_0_1_n_n none x wr))
        (broadcastInDim S100000x128 ![0, 1] hb2 (broadcastInDim S1x128 ![1] hb1 b)))
      (broadcastInDim S100000x128 ![] hb0 (constant (F := Ideal) S_ .f32 0x00000000#32))
    = Cert.Sage.relu 128 (Cert.Sage.combine 128 mean x wl wr (shapeCast S1x128 b h)) := by
  funext i
  obtain ⟨r, j, rfl⟩ : ∃ (r : Fin 100000) (j : Fin 128), i = ix2 r j := ⟨i 0, i 1, eq_ix2 i⟩
  rw [Cert.Sage.relu_apply, Cert.Sage.combine_ix2]
  unfold Cert.Sage.combineAt
  rw [maximumf_apply, addf_apply, addf_apply, dotGeneral128_apply, dotGeneral128_apply, bias128_apply, zero128_apply,
    shapeCast_a_1a_apply]

/-- The output layer of the reference (64 output channels, no clamp) is the specification's layer of the same arrays, the
    bias vector read as the row `[1, 64]`. -/
theorem layer64 (mean x : FVec Ideal S100000x128 .f32) (wl wr : FVec Ideal S128x64 .f32) (b : FVec Ideal S64 .f32)
    (h : S64.ShapeCasts S1x64)
    (hb1 : S64.BroadcastsInDim S1x64 (![1] : Fin 1 → Fin S1x64.rank))
    (hb2 : S1x64.BroadcastsInDim S100000x64 (![0, 1] : Fin 2 → Fin S100000x64.rank)) :
    addf (addf (Host.dotGeneral (F := Ideal) dot_S100000x128_S128x64_S100000x64_1_0_0_1_n_n none mean wl)
        (Host.dotGeneral (F := Ideal) dot_S100000x128_S128x64_S100000x64_1_0_0_1_n_n none x wr))
        (broadcastInDim S100000x64 ![0, 1] hb2 (broadcastInDim S1x64 ![1] hb1 b))
    = Cert.Sage.combine 64 mean x wl wr (shapeCast S1x64 b h) := by
  funext i
  obtain ⟨r, j, rfl⟩ : ∃ (r : Fin 100000) (j : Fin 64), i = ix2 r j := ⟨i 0, i 1, eq_ix2 i⟩
  rw [Cert.Sage.combine_ix2]
  unfold Cert.Sage.combineAt
  rw [addf_apply, addf_apply, dotGeneral64_apply, dotGeneral64_apply, bias64_apply, shapeCast_a_1a_apply]

end Cert.ReferenceIdeal.SageLayer

end
-- ==== Proof.RefValue.lean ====
/-
  The reference program's result is the network function of its arguments.

  The reference computes each layer on the host: the neighbourhood mean by the same chain of host operations the kernel's
  program uses (so the mean is the shared function `aggregate`, by unfolding names only), then the two contractions, the
  bias and — on the hidden layers — the clamp, which together are the layer's specification (the reference's layer read
  index by index). Layer by layer its stages are `hidden`, `hidden`, `output` of the previous stage.
-/
import proofs.«175238_j19155554140465_1_alg».proof.Proof.HostDefs
import proofs.«175238_j19155554140465_1_alg».proof.Proof.RefLayer
import proofs.«175238_j19155554140465_1_alg».proof.Proof.Gen.ReferenceIdeal.Read

set_option maxRecDepth 16384

noncomputable section

namespace Cert.ReferenceIdeal.SageValue

open Idealize.ShloMosaic Idealize.ShloMosaic.TcCoe Idealize.SL.Sem
open Cert.ReferenceIdeal Cert.ReferenceIdeal.Gen Cert.ReferenceIdeal.Read
open Cert.KernelIdeal.SageHost (aggregate srcRow dstRow hidden output network)

/-- The first hidden layer. -/
theorem stage1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4 = hidden x0 x1 x2 x3 x4 := by
  unfold val_main_v31 val_main_v30 val_main_v27 val_main_v24 val_main_v26 val_main_v29 val_main_v28 val_main_call0_v0 val_main_call0_cst
  rw [Cert.ReferenceIdeal.SageLayer.layer128 _ _ _ _ _ Cert.KernelIdeal.Gen.shapeCasts_S128_S1x128]
  rfl

/-- The second hidden layer, of the first one's result. -/
theorem stage2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v59 (F := Ideal) x0 x1 x2 x3 x4 x5 x6 x7 = hidden (val_main_v31 (F := Ideal) x0 x1 x2 x3 x4) x1 x5 x6 x7 := by
  unfold val_main_v59 val_main_v58 val_main_v55 val_main_v52 val_main_v54 val_main_v57 val_main_v56 val_main_call1_v0 val_main_call1_cst
  rw [Cert.ReferenceIdeal.SageLayer.layer128 _ _ _ _ _ Cert.KernelIdeal.Gen.shapeCasts_S128_S1x128]
  rfl

/-- The output layer, of the second hidden layer's result. -/
theorem stage3 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S64x128, .f32⟩ : BufTy).Contents (Elt Ideal)) (x10 : (⟨S64, .f32⟩ : BufTy).Contents (Elt Ideal)) :
    val_main_v86 (F := Ideal) x0 x1 x2 x3 x4 x5 x6 x7 x8 x9 x10
      = output (val_main_v59 (F := Ideal) x0 x1 x2 x3 x4 x5 x6 x7) x1 x8 x9 x10 := by
  unfold val_main_v86 val_main_v83 val_main_v80 val_main_v82 val_main_v85 val_main_v84
  rw [Cert.ReferenceIdeal.SageLayer.layer64 _ _ _ _ _ Cert.KernelIdeal.Gen.shapeCasts_S64_S1x64]
  rfl

/-- The reference's result, as the run states it, is the network function of the arguments' launch contents. -/
theorem result_eq (m : (ℓ : Loc nD τ sig) → Buf (Elt Ideal) ℓ) (c : Dev nD) :
    Cert.ReferenceIdeal.Value.res_main_v86 m c
      = network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [val_main_v86_eq, stage3, stage2, stage1]
  rfl

end Cert.ReferenceIdeal.SageValue

end
-- ==== Proof.lean ====
/-
  The certificate of a three-layer mean-aggregation graph network (100000 nodes, 1600000 edges, 128 → 128 → 128 → 64
  channels): a Pallas kernel program against its jnp reference, equal over the extended reals.

  Both programs compute, layer by layer, for every node the mean of its in-neighbours' rows (gather at the edges'
  sources, sum into the destinations, divide by the in-degree clamped at one) and then
      mean · W_lᵀ + h · W_rᵀ + b            (clamped below at zero on the two hidden layers).
  The kernel program does the combination in a pallas region over twenty blocks of 5000 nodes — two matrix products
  into zero accumulators, their sum, the bias row, the clamp — and the reference does it on the host with two
  contractions over whole arrays. Over the extended reals a matrix product is the plain sum over the contracted channels
  on both sides, float format changes are the identity, and both sides associate the three summands the same way, so
  the two results are ONE function of the eleven argument arrays (`network`), with no appeal to finiteness:
    · each region's output array is the layer's specification of the arrays the region finds (block by block, the
      blocks covering the array): Region0 / Region1 / Region2;
    · the host stretches between the regions are read one result at a time, the neighbourhood mean carried as one
      unopened function shared with the reference: Stretch0 / Stretch1 / Stretch2, folded in KernelValue;
    · the reference's stages are the same function: RefLayer, RefValue.
  The three frames are the generated frame theorems (the reference's its generated run with the result dropped); the
  idealization rewrote nothing, so `preserves` holds trivially.
-/
import proofs.«175238_j19155554140465_1_alg».proof.Defs
import proofs.«175238_j19155554140465_1_alg».proof.Proof.Gen.Kernel
import proofs.«175238_j19155554140465_1_alg».proof.Proof.Gen.Kernel.Frame
import proofs.«175238_j19155554140465_1_alg».proof.Proof.Gen.KernelIdeal
import proofs.«175238_j19155554140465_1_alg».proof.Proof.Gen.KernelIdeal.Frame
import proofs.«175238_j19155554140465_1_alg».proof.Proof.Gen.ReferenceIdeal
import proofs.«175238_j19155554140465_1_alg».proof.Proof.Gen.Pre_finite_inputs
import proofs.«175238_j19155554140465_1_alg».proof.Proof.Gen.ReferenceIdeal.Run
import proofs.«175238_j19155554140465_1_alg».proof.Proof.Gen.ReferenceIdeal.Read
import proofs.«175238_j19155554140465_1_alg».proof.Proof.KernelRun
import proofs.«175238_j19155554140465_1_alg».proof.Proof.KernelValue
import proofs.«175238_j19155554140465_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network function of those arguments in their
    result buffers: the kernel program by its named run and the fold of its regions and stretches, the reference by its
    generated run and its stages. -/
theorem algebraic : Cert.algebraic_KernelIdeal_ReferenceIdeal := by
  intro m ρ m' ρ' _ hagree
  refine ⟨fun c => Cert.KernelIdeal.SageHost.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.SageValue.result_eq m ρ c), (h c).2⟩)
      (Cert.KernelIdeal.SageRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.SageValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
